-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S800000 .f32) (main_arg3 : FVec F S3x128x128 .f32) (main_arg4 : FVec F S3x128 .f32) (main_arg5 : FVec F S3x128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S3x128x128 : Shape := ⟨3, ![3, 128, 128]⟩
abbrev S3x128 : Shape := ⟨2, ![3, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 82
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x1, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S1x128x128, .f32⟩
  | .hbm, ⟨27, _⟩ => ⟨S128x128, .f32⟩
  | .hbm, ⟨28, _⟩ => ⟨S1x128, .f32⟩
  | .hbm, ⟨29, _⟩ => ⟨S128, .f32⟩
  | .hbm, ⟨30, _⟩ => ⟨S1x128x128, .f32⟩
  | .hbm, ⟨31, _⟩ => ⟨S128x128, .f32⟩
  | .hbm, ⟨32, _⟩ => ⟨S1x128, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S800000x1, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S1x128x128, .f32⟩
  | .hbm, ⟨51, _⟩ => ⟨S128x128, .f32⟩
  | .hbm, ⟨52, _⟩ => ⟨S1x128, .f32⟩
  | .hbm, ⟨53, _⟩ => ⟨S128, .f32⟩
  | .hbm, ⟨54, _⟩ => ⟨S1x128x128, .f32⟩
  | .hbm, ⟨55, _⟩ => ⟨S128x128, .f32⟩
  | .hbm, ⟨56, _⟩ => ⟨S1x128, .f32⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S800000x1, .f32⟩
  | .hbm, ⟨68, _⟩ => ⟨S800000x128, .f32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S1x128x128, .f32⟩
  | .hbm, ⟨75, _⟩ => ⟨S128x128, .f32⟩
  | .hbm, ⟨76, _⟩ => ⟨S1x128, .f32⟩
  | .hbm, ⟨77, _⟩ => ⟨S128, .f32⟩
  | .hbm, ⟨78, _⟩ => ⟨S1x128x128, .f32⟩
  | .hbm, ⟨79, _⟩ => ⟨S128x128, .f32⟩
  | .hbm, ⟨80, _⟩ => ⟨S1x128, .f32⟩
  | .hbm, ⟨81, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_1 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_4 : Ref sig .tc := ⟨.hbm, 58, rfl⟩
abbrev main_v46 : Ref sig .tc := ⟨.hbm, 59, rfl⟩
abbrev main_v47 : Ref sig .tc := ⟨.hbm, 60, rfl⟩
abbrev main_c_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S3x128x128 : Shape := ⟨3, ![3, 128, 128]⟩
abbrev S3x128 : Shape := ⟨2, ![3, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x1, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S1x128x128, .f32⟩
  | .hbm, ⟨27, _⟩ => ⟨S128x128, .f32⟩
  | .hbm, ⟨28, _⟩ => ⟨S50000x128, .f32⟩
  | .hbm, ⟨29, _⟩ => ⟨S1x128, .f32⟩
  | .hbm, ⟨30, _⟩ => ⟨S128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S1x128x128, .f32⟩
  | .hbm, ⟨35, _⟩ => ⟨S128x128, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x1, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S1x128x128, .f32⟩
  | .hbm, ⟨58, _⟩ => ⟨S128x128, .f32⟩
  | .hbm, ⟨59, _⟩ => ⟨S50000x128, .f32⟩
  | .hbm, ⟨60, _⟩ => ⟨S1x128, .f32⟩
  | .hbm, ⟨61, _⟩ => ⟨S128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S1x128x128, .f32⟩
  | .hbm, ⟨66, _⟩ => ⟨S128x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S800000x1, .f32⟩
  | .hbm, ⟨82, _⟩ => ⟨S800000x128, .f32⟩
  | .hbm, ⟨83, _⟩ => ⟨S800000x128, .f32⟩
  | .hbm, ⟨84, _⟩ => ⟨S_, .f32⟩
  | .hbm, ⟨85, _⟩ => ⟨S50000x128, .f32⟩
  | .hbm, ⟨86, _⟩ => ⟨S800000x1, .i32⟩
  | .hbm, ⟨87, _⟩ => ⟨S50000x128, .f32⟩
  | .hbm, ⟨88, _⟩ => ⟨S1x128x128, .f32⟩
  | .hbm, ⟨89, _⟩ => ⟨S128x128, .f32⟩
  | .hbm, ⟨90, _⟩ => ⟨S50000x128, .f32⟩
  | .hbm, ⟨91, _⟩ => ⟨S1x128, .f32⟩
  | .hbm, ⟨92, _⟩ => ⟨S128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S1x128x128, .f32⟩
  | .hbm, ⟨97, _⟩ => ⟨S128x128, .f32⟩
  | .hbm, ⟨98, _⟩ => ⟨S50000x128, .f32⟩
  | .hbm, ⟨99, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_cst : Ref sig .tc := ⟨.hbm, 38, rfl⟩
abbrev main_call0_v0 : Ref sig .tc := ⟨.hbm, 39, rfl⟩
abbrev main_v29 : Ref sig .tc := ⟨.hbm, 40, rfl⟩
abbrev main_c_1 : Ref sig .tc := ⟨.hbm, 41, rfl⟩
abbrev main_v30 : Ref sig .tc := ⟨.hbm, 42, rfl⟩
abbrev main_v31 : Ref sig .tc := ⟨.hbm, 43, rfl⟩
abbrev main_c_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_call1_cst : Ref sig .tc := ⟨.hbm, 69, rfl⟩
abbrev main_call1_v0 : Ref sig .tc := ⟨.hbm, 70, rfl⟩
abbrev main_v55 : Ref sig .tc := ⟨.hbm, 71, rfl⟩
abbrev main_c_4 : Ref sig .tc := ⟨.hbm, 72, rfl⟩
abbrev main_v56 : Ref sig .tc := ⟨.hbm, 73, rfl⟩
abbrev main_v57 : Ref sig .tc := ⟨.hbm, 74, rfl⟩
abbrev main_c_5 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_6 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run with its result named.

  @main is three pipelined regions among three stretches of host operations.  The buffer contents at each boundary are a
  fold from the launch memory: a stretch applies its operations, a region leaves each of its output arrays at what
  its write-backs leave and every other buffer as entered.  Every weakly fair execution terminates, nothing faulting,
  and in the final state the result array holds the last boundary's contents at the result's buffer, the argument
  arrays what they held at launch.
-/
import proofs.«106743_j73589969649974_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run : θ_run defs (onTc (τ := τ) (main (F := F))) ⟨m, fun _ => 0, ρ⟩ (fun r => ∀ c : Dev nD,
      r.2.mem ((c.tc : Thread nD τ).loc main_v66) = W6 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v66 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.LibRowOps.lean ====
/-
  Rows and columns of rank-2 vectors read at an index, at the ideal values (extended reals, exact operations).

  * the keep-dimensions column forms: a length-`a` vector cast to `[a, 1]`, and an `[a, 1]` column broadcast over
    `b` lanes, read at `(p, c)`;
  * a bias row: a length-`b` vector cast to `[1, b]` and broadcast over `a` rows reads, at `(p, c)`, its entry `c`;
  * the sum over the lanes of a row (`vector.multi_reduction <add>` over axis 1 of an `[a, b]` vector into the zero
    accumulator) is the `Fin b`-indexed sum of the row's entries;
  * a plain `M×K` by `K×N` matrix product into the zero accumulator is, at `(r, j)`, the sum over `k : Fin K` of
    `lhs (r, k) * rhs (k, j)`, whatever the operands' float formats;
  * a sum over `Fin (m + n)` splits into the sums over its first `m` and its last `n` indices.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowOps

open Idealize.ShloMosaic Idealize.ShloMosaic.ValueIdx

variable {α : Type}

/-- A length-`a` vector cast to an `[a, 1]` column reads, at `(p, u)`, its entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast over `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias row: a length-`b` vector cast to `[1, b]` and broadcast over `a` rows reads, at `(p, c)`, its entry `c`. -/
theorem biasRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A keep-dimensions column: a length-`a` vector `s` cast to `[a, 1]`, mapped entry by entry by `f`, and broadcast over
    `b` lanes reads, at `(p, c)`, `f` of the entry `p`. -/
theorem keepCol_apply {β : Type} {a b : ℕ} (x : (⟨1, ![a]⟩ : Shape).Idx → α) (h : (⟨1, ![a]⟩ : Shape).ShapeCasts ⟨2, ![a, 1]⟩)
    (f : α → β) (h' : (⟨2, ![a, 1]⟩ : Shape).Broadcasts ⟨2, ![a, b]⟩) (p : Fin a) (c : Fin b) :
    broadcastTo ⟨2, ![a, b]⟩ (fun i => f (shapeCast ⟨2, ![a, 1]⟩ x h i)) h' (ix2 p c) = f (x (ix1 p)) :=
  (broadcastTo_a1_ab_apply _ h' p c).trans (congrArg f (shapeCast_a_a1_apply x h p 0))

/-- The sum over the lanes of row `p` of an `[a, b]` vector, into the zero accumulator, at the ideal values. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- A plain `M×K` by `K×N` product into the zero accumulator, at `(r, j)`: the sum over `k` of `lhs (r, k) * rhs (k, j)`. -/
theorem matmul_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    FloatOps.matmul d prec lhs rhs (constant ⟨2, ![M, N]⟩ .f32 0x00000000#32) (ix2 r j)
      = ∑ k : Fin K, lhs (ix2 r k) * rhs (ix2 k j) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

/-- A sum over `Fin (m + n)` is the sum over its first `m` indices plus the sum over its last `n`. -/
theorem sum_fin_split {M : Type} [AddCommMonoid M] (m n : ℕ) (f : Fin (m + n) → M) :
    ∑ k, f k = (∑ a : Fin m, f ⟨a.val, by omega⟩) + ∑ a : Fin n, f ⟨m + a.val, by omega⟩ :=
  Fin.sum_univ_add f

end Cert.LibRowOps

end
-- ==== Proof.LibHostDot.lean ====
/-
  The host's matrix product read at an index, at the ideal values (extended reals, exact operations).

  A plain `stablehlo.dot_general` of an `M×K` by a `K×N` operand (no batch axis; the left operand contracted on its
  second axis, the right on its first) is, at `(r, j)`, the sum over `k : Fin K` of `lhs (r, k) * rhs (k, j)`,
  whatever the operands' float formats and the precision attribute.  It is the host's counterpart of a kernel's plain
  `tpu.matmul` into the zero accumulator read the same way; stated over the same sum, the two meet without any further
  re-indexing.  Standalone: imports only the Idealize library.
-/
import Idealize.ShloMosaic.Lib.ValueIdx
import Idealize.ShloMosaic.Lib.Pipeline.Value
import Idealize.ShloMosaic.PureOps.Ideal.Laws

noncomputable section

namespace Cert.LibHostDot

open Idealize.ShloMosaic Idealize.ShloMosaic.ValueIdx

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The host's plain `M×K` by `K×N` `dot_general` at `(r, j)`: the sum over `k` of `lhs (r, k) * rhs (k, j)`. -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    Host.dotGeneral d prec lhs rhs (ix2 r j) = ∑ k : Fin K, lhs (ix2 r k) * rhs (ix2 k j) := by
  subst hd
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

end Cert.LibHostDot

end
-- ==== Proof.Layer.lean ====
/-
  One graph-convolution layer on the extended reals, index by index.

  For node features `H` (n rows, 128 lanes), aggregated messages `A` of the same shape, two 128×128 weight
  matrices `Wr`, `Wo` and a bias row `b`, the layer's value at row `r`, lane `j` is

      (Σ_k A(r,k)·Wr(k,j) + Σ_k H(r,k)·Wo(k,j)) + b(j),

  followed, in every layer but the last, by `max · 0`.  The kernel adds the two products first and the bias last;
  the reference adds the bias to the first product and the second product last.  Addition of extended reals is
  commutative and associative at the infinities too, so the two groupings are one value (`add_right_comm`); no
  finiteness is used.

  Read here at an index: the tile body's arithmetic (two matrix products into zero accumulators, their sum, the
  broadcast bias row, the maximum with the zero splat), and the host's spelling of the same layer (two
  `dot_general`s, the bias broadcast over the rows).
-/
import Idealize.ShloMosaic.Lib.ValueIdx
import Idealize.ShloMosaic.Lib.ValueLayout
import Idealize.ShloMosaic.Lib.Pipeline.Value
import Idealize.ShloMosaic.PureOps.Ideal.Laws
import proofs.«106743_j73589969649974_1_alg».proof.Proof.LibRowOps
import proofs.«106743_j73589969649974_1_alg».proof.Proof.LibHostDot

noncomputable section

namespace Cert.GraphConv

open Idealize.ShloMosaic Idealize.ShloMosaic.ValueIdx

/-- The 128×128 weight shape. -/
abbrev SW : Shape := ⟨2, ![128, 128]⟩

/-- The layer before its activation, at row `r` and lane `j`, in the kernel's grouping. -/
def pre {n : ℕ} (A H : (⟨2, ![n, 128]⟩ : Shape).Idx → EReal) (Wr Wo : SW.Idx → EReal) (b : Fin 128 → EReal)
    (r : Fin n) (j : Fin 128) : EReal :=
  ((∑ k : Fin 128, A (ix2 r k) * Wr (ix2 k j)) + ∑ k : Fin 128, H (ix2 r k) * Wo (ix2 k j)) + b j

/-- The activation: `max · 0` in the inner layers, nothing in the last. -/
def act (relu : Bool) (z : EReal) : EReal := if relu then max z 0 else z

/-- One layer as a whole array. -/
def layer (relu : Bool) {n : ℕ} (A H : (⟨2, ![n, 128]⟩ : Shape).Idx → EReal) (Wr Wo : SW.Idx → EReal)
    (b : Fin 128 → EReal) : (⟨2, ![n, 128]⟩ : Shape).Idx → EReal :=
  fun i => act relu (pre A H Wr Wo b (i 0) (i 1))

theorem layer_apply (relu : Bool) {n : ℕ} (A H : (⟨2, ![n, 128]⟩ : Shape).Idx → EReal) (Wr Wo : SW.Idx → EReal)
    (b : Fin 128 → EReal) (r : Fin n) (j : Fin 128) :
    layer relu A H Wr Wo b (ix2 r j) = act relu (pre A H Wr Wo b r j) := rfl

/-- The tile body's sum before the activation, read at `(p, q)`: two products into zero accumulators, added, plus the
    bias row broadcast over the tile's rows. -/
theorem tile_pre_apply {n : ℕ} (d : DotDims ⟨2, ![n, 128]⟩ SW ⟨2, ![n, 128]⟩) (hd : d = DotDims.plain n 128 128)
    (x0 x1 : FVec Ideal ⟨2, ![n, 128]⟩ .f32) (x2 x4 : FVec Ideal SW .f32) (x3 : FVec Ideal ⟨2, ![1, 128]⟩ .f32)
    (hb : (⟨2, ![1, 128]⟩ : Shape).Broadcasts ⟨2, ![n, 128]⟩) (p : Fin n) (q : Fin 128) :
    addf (addf (matmul d none x0 x2 (constant ⟨2, ![n, 128]⟩ .f32 0x00000000#32))
        (matmul d none x1 x4 (constant ⟨2, ![n, 128]⟩ .f32 0x00000000#32)))
      (broadcastTo ⟨2, ![n, 128]⟩ x3 hb) (ix2 p q)
      = pre x0 x1 x2 x4 (fun j => x3 (ix2 (0 : Fin 1) j)) p q := by
  show (FloatOps.matmul d none x0 x2 (constant ⟨2, ![n, 128]⟩ .f32 0x00000000#32) (ix2 p q)
      + FloatOps.matmul d none x1 x4 (constant ⟨2, ![n, 128]⟩ .f32 0x00000000#32) (ix2 p q))
      + broadcastTo ⟨2, ![n, 128]⟩ x3 hb (ix2 p q) = _
  rw [Cert.LibRowOps.matmul_plain_apply d hd none x0 x2 p q, Cert.LibRowOps.matmul_plain_apply d hd none x1 x4 p q,
    broadcastTo_1b_ab_apply x3 hb p q]
  rfl

/-- The host's spelling of the layer before its activation — the first product plus the bias, then the second
    product — is the kernel's grouping: addition of extended reals is commutative and associative. -/
theorem host_pre_apply {n : ℕ} (d : DotDims ⟨2, ![n, 128]⟩ SW ⟨2, ![n, 128]⟩) (hd : d = DotDims.plain n 128 128)
    (A H : FVec Ideal ⟨2, ![n, 128]⟩ .f32) (Wr Wo : FVec Ideal SW .f32) (B : FVec Ideal ⟨2, ![n, 128]⟩ .f32)
    (b : Fin 128 → EReal) (hB : ∀ r j, B (ix2 r j) = b j) (r : Fin n) (j : Fin 128) :
    addf (addf (Host.dotGeneral d none A Wr) B) (Host.dotGeneral d none H Wo) (ix2 r j) = pre A H Wr Wo b r j := by
  show (Host.dotGeneral d none A Wr (ix2 r j) + B (ix2 r j)) + Host.dotGeneral d none H Wo (ix2 r j) = _
  rw [Cert.LibHostDot.dotGeneral_plain_apply d hd none A Wr r j, Cert.LibHostDot.dotGeneral_plain_apply d hd none H Wo r j, hB r j]
  exact add_right_comm _ _ _

/-- Three layers: the first two with the activation, the last without; each layer's messages are `agg` of the
    features entering it. -/
def net (agg : ((⟨2, ![50000, 128]⟩ : Shape).Idx → EReal) → (⟨2, ![50000, 128]⟩ : Shape).Idx → EReal)
    (X : (⟨2, ![50000, 128]⟩ : Shape).Idx → EReal) (Wr0 Wo0 Wr1 Wo1 Wr2 Wo2 : SW.Idx → EReal) (b0 b1 b2 : Fin 128 → EReal) :
    (⟨2, ![50000, 128]⟩ : Shape).Idx → EReal :=
  layer false (agg (layer true (agg (layer true (agg X) X Wr0 Wo0 b0)) (layer true (agg X) X Wr0 Wo0 b0) Wr1 Wo1 b1))
    (layer true (agg (layer true (agg X) X Wr0 Wo0 b0)) (layer true (agg X) X Wr0 Wo0 b0) Wr1 Wo1 b1) Wr2 Wo2 b2

end Cert.GraphConv

end
-- ==== Proof.Region0.lean ====
/-
  Region 0 of the kernel program: one graph-convolution layer with its activation, tiled over 10 tiles of 5000 rows.

  Entered with the buffers at contents `V`, the region leaves its output array at the layer's whole array of the arrays it
  reads: the tile body computes, for the tile's rows, the two matrix products into zero accumulators, their sum, the bias
  row, the maximum with zero; tile `t` reads rows 5000·t … 5000·t + 4999 of the two row-tiled inputs and the whole weights and bias, and writes
  the same rows of the output; the ten tiles cover every row.
-/
import proofs.«106743_j73589969649974_1_alg».proof.Proof.Gen.KernelIdeal.Frame
import proofs.«106743_j73589969649974_1_alg».proof.Proof.Layer

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv

-- the contents of the TensorCore's buffers when the region is entered
variable (V : (c : Dev nD) → (b : Ref sig .tc) → Buf (Elt Ideal) ((c : Thread nD τ).loc b))

theorem hz : (![0, 0] : Fin 2 → Nat) = fun _ => 0 := funext fun a => by fin_cases a <;> rfl

/-- The tile body's stored value at row `p`, lane `q` of the tile: the layer's value for the tile's rows. -/
theorem pay_apply (x0 x1 : Vec Ideal S5000x128 .f32) (x2 x4 : Vec Ideal S128x128 .f32) (x3 : Vec Ideal S1x128 .f32)
    (p : Fin 5000) (q : Fin 128) :
    k0_pay1 (F := Ideal) x0 x1 x2 x4 x3 (ix2 p q) = act true (pre x0 x1 x2 x4 (fun j => x3 (ix2 (0 : Fin 1) j)) p q) := by
  unfold k0_pay1
  simp only [shapeCast_self]
  have h := tile_pre_apply dot_S5000x128_S128x128_S5000x128_1_0_0_1_n_n rfl x0 x1 x2 x4 x3 broadcasts_S1x128_S5000x128 p q
  exact (congrArg (fun z : EReal => max z (Ideal.ofBits .f32 0x00000000#32)) h).trans (by rw [Ideal.ofBits_zero_f32]; rfl)

/-- The printed index maps, decided over the grid: the two row-tiled inputs move with the output tile, the weights and
    the bias row stay at block 0, and the output's block index on the row axis is the grid point. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What grid point `t` writes back is tile `t` of the layer's whole array, computed from the arrays as the region
    finds them. -/
theorem flushed_eq (c : Dev nD) (t : Fin cfg0.N) :
    (dat0 V c).flushed 5 t = ((cfg0.win 5).blk t).view.read (Elt Ideal)
      (layer true (V c main_v16) (V c main_arg0) (V c main_v18) (V c main_v22) (fun j => V c main_v23 (ix2 (0 : Fin 1) j))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext y
  obtain ⟨p, q, rfl⟩ : ∃ (p : Fin 5000) (q : Fin 128), y = ix2 p q := ⟨y 0, y 1, eq_ix2 y⟩
  show k0_pay1 (iblk0 V c 0 t) (iblk0 V c 1 t) (iblk0 V c 2 t) (iblk0 V c 4 t) (iblk0 V c 3 t) (ix2 p q)
    = act true (pre (V c main_v16) (V c main_arg0) (V c main_v18) (V c main_v22) (fun j => V c main_v23 (ix2 (0 : Fin 1) j))
        ((((cfg0.win 5).blk t).view.emb (ix2 p q)) 0) ((((cfg0.win 5).blk t).view.emb (ix2 p q)) 1))
  refine (pay_apply (iblk0 V c 0 t) (iblk0 V c 1 t) (iblk0 V c 2 t) (iblk0 V c 4 t) (iblk0 V c 3 t) p q).trans ?_
  refine congrArg (act true) ?_
  unfold pre
  have hr : ((((cfg0.win 5).blk t).view.emb (ix2 p q)) 0).val = win0_5.index t (0 : Fin 2) * 5000 + 1 * p.val := rfl
  have hs : ((((cfg0.win 5).blk t).view.emb (ix2 p q)) 1).val = win0_5.index t (1 : Fin 2) * 128 + 1 * q.val := rfl
  have hA : ∀ k : Fin 128, iblk0 V c 0 t (ix2 p k) = V c main_v16 (ix2 ((((cfg0.win 5).blk t).view.emb (ix2 p q)) 0) k) := fun k => by
    show V c main_v16 (((cfg0.win 0).blk t).view.emb (ix2 p k)) = _
    refine congrArg (V c main_v16) (funext fun a => Fin.ext ?_)
    match a with
    | ⟨0, _⟩ => show win0_0.index t (0 : Fin 2) * 5000 + 1 * p.val = _; rw [hr]; omega
    | ⟨1, _⟩ => show win0_0.index t (1 : Fin 2) * 128 + 1 * k.val = k.val; omega
  have hH : ∀ k : Fin 128, iblk0 V c 1 t (ix2 p k) = V c main_arg0 (ix2 ((((cfg0.win 5).blk t).view.emb (ix2 p q)) 0) k) := fun k => by
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = _; rw [hr]; omega
    | ⟨1, _⟩ => show win0_1.index t (1 : Fin 2) * 128 + 1 * k.val = k.val; omega
  have hWr : ∀ k : Fin 128, iblk0 V c 2 t (ix2 k q) = V c main_v18 (ix2 k ((((cfg0.win 5).blk t).view.emb (ix2 p q)) 1)) := fun k => by
    show V c main_v18 (((cfg0.win 2).blk t).view.emb (ix2 k q)) = _
    refine congrArg (V c main_v18) (funext fun a => Fin.ext ?_)
    match a with
    | ⟨0, _⟩ => show win0_2.index t (0 : Fin 2) * 128 + 1 * k.val = k.val; omega
    | ⟨1, _⟩ => show win0_2.index t (1 : Fin 2) * 128 + 1 * q.val = _; rw [hs]; omega
  have hWo : ∀ k : Fin 128, iblk0 V c 4 t (ix2 k q) = V c main_v22 (ix2 k ((((cfg0.win 5).blk t).view.emb (ix2 p q)) 1)) := fun k => by
    show V c main_v22 (((cfg0.win 4).blk t).view.emb (ix2 k q)) = _
    refine congrArg (V c main_v22) (funext fun a => Fin.ext ?_)
    match a with
    | ⟨0, _⟩ => show win0_4.index t (0 : Fin 2) * 128 + 1 * k.val = k.val; omega
    | ⟨1, _⟩ => show win0_4.index t (1 : Fin 2) * 128 + 1 * q.val = _; rw [hs]; omega
  have hb : iblk0 V c 3 t (ix2 (0 : Fin 1) q) = V c main_v23 (ix2 (0 : Fin 1) ((((cfg0.win 5).blk t).view.emb (ix2 p q)) 1)) := by
    show V c main_v23 (((cfg0.win 3).blk t).view.emb (ix2 (0 : Fin 1) q)) = _
    refine congrArg (V c main_v23) (funext fun a => Fin.ext ?_)
    match a with
    | ⟨0, _⟩ => show win0_3.index t (0 : Fin 2) * 1 + 1 * 0 = 0; omega
    | ⟨1, _⟩ => show win0_3.index t (1 : Fin 2) * 128 + 1 * q.val = _; rw [hs]; omega
  refine congrArg₂ (· + ·) (congrArg₂ (· + ·) (Finset.sum_congr rfl fun k _ => ?_) (Finset.sum_congr rfl fun k _ => ?_)) hb
  · exact congrArg₂ (· * ·) (hA k) (hWr k)
  · exact congrArg₂ (· * ·) (hH k) (hWo k)

/-- An index of the array is in grid point `t`'s tile iff each coordinate is in the tile's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- The ten tiles of 5000 rows cover the 50000 rows: row `r` is in tile `r / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have ht : (i 0).val / 5000 < cfg0.N := by rw [hN]; omega
  refine ⟨⟨(i 0).val / 5000, ht⟩, flush0_5 _, ?_⟩
  rw [mem_blk]
  obtain ⟨-, -, -, -, -, -, -, -, -, -, e50, e51⟩ := idx_facts ⟨(i 0).val / 5000, ht⟩
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e51]
    omega

/-- The region's output array after the region: the layer's whole array of the arrays the region was entered with. -/
theorem final (c : Dev nD) :
    (dat0 V c).arrAt 5 cfg0.N
      = layer true (V c main_v16) (V c main_arg0) (V c main_v18) (V c main_v22) (fun j => V c main_v23 (ix2 (0 : Fin 1) j)) :=
  (dat0 V c).arrAt_eq_of_cover 5 _ (fun t _ => flushed_eq V c t) (cover)

end Cert.KernelIdeal.Region0

end
-- ==== Proof.Region1.lean ====
/-
  Region 1 of the kernel program: one graph-convolution layer with its activation, tiled over 10 tiles of 5000 rows.

  Entered with the buffers at contents `V`, the region leaves its output array at the layer's whole array of the arrays it
  reads: the tile body computes, for the tile's rows, the two matrix products into zero accumulators, their sum, the bias
  row, the maximum with zero; tile `t` reads rows 5000·t … 5000·t + 4999 of the two row-tiled inputs and the whole weights and bias, and writes
  the same rows of the output; the ten tiles cover every row.
-/
import proofs.«106743_j73589969649974_1_alg».proof.Proof.Gen.KernelIdeal.Frame
import proofs.«106743_j73589969649974_1_alg».proof.Proof.Layer

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv

-- the contents of the TensorCore's buffers when the region is entered
variable (V : (c : Dev nD) → (b : Ref sig .tc) → Buf (Elt Ideal) ((c : Thread nD τ).loc b))

theorem hz : (![0, 0] : Fin 2 → Nat) = fun _ => 0 := funext fun a => by fin_cases a <;> rfl

/-- The tile body's stored value at row `p`, lane `q` of the tile: the layer's value for the tile's rows. -/
theorem pay_apply (x0 x1 : Vec Ideal S5000x128 .f32) (x2 x4 : Vec Ideal S128x128 .f32) (x3 : Vec Ideal S1x128 .f32)
    (p : Fin 5000) (q : Fin 128) :
    k1_pay1 (F := Ideal) x0 x1 x2 x4 x3 (ix2 p q) = act true (pre x0 x1 x2 x4 (fun j => x3 (ix2 (0 : Fin 1) j)) p q) := by
  unfold k1_pay1
  simp only [shapeCast_self]
  have h := tile_pre_apply dot_S5000x128_S128x128_S5000x128_1_0_0_1_n_n rfl x0 x1 x2 x4 x3 broadcasts_S1x128_S5000x128 p q
  exact (congrArg (fun z : EReal => max z (Ideal.ofBits .f32 0x00000000#32)) h).trans (by rw [Ideal.ofBits_zero_f32]; rfl)

/-- The printed index maps, decided over the grid: the two row-tiled inputs move with the output tile, the weights and
    the bias row stay at block 0, and the output's block index on the row axis is the grid point. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What grid point `t` writes back is tile `t` of the layer's whole array, computed from the arrays as the region
    finds them. -/
theorem flushed_eq (c : Dev nD) (t : Fin cfg1.N) :
    (dat1 V c).flushed 5 t = ((cfg1.win 5).blk t).view.read (Elt Ideal)
      (layer true (V c main_v37) (V c main_v24) (V c main_v39) (V c main_v43) (fun j => V c main_v44 (ix2 (0 : Fin 1) j))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext y
  obtain ⟨p, q, rfl⟩ : ∃ (p : Fin 5000) (q : Fin 128), y = ix2 p q := ⟨y 0, y 1, eq_ix2 y⟩
  show k1_pay1 (iblk1 V c 0 t) (iblk1 V c 1 t) (iblk1 V c 2 t) (iblk1 V c 4 t) (iblk1 V c 3 t) (ix2 p q)
    = act true (pre (V c main_v37) (V c main_v24) (V c main_v39) (V c main_v43) (fun j => V c main_v44 (ix2 (0 : Fin 1) j))
        ((((cfg1.win 5).blk t).view.emb (ix2 p q)) 0) ((((cfg1.win 5).blk t).view.emb (ix2 p q)) 1))
  refine (pay_apply (iblk1 V c 0 t) (iblk1 V c 1 t) (iblk1 V c 2 t) (iblk1 V c 4 t) (iblk1 V c 3 t) p q).trans ?_
  refine congrArg (act true) ?_
  unfold pre
  have hr : ((((cfg1.win 5).blk t).view.emb (ix2 p q)) 0).val = win1_5.index t (0 : Fin 2) * 5000 + 1 * p.val := rfl
  have hs : ((((cfg1.win 5).blk t).view.emb (ix2 p q)) 1).val = win1_5.index t (1 : Fin 2) * 128 + 1 * q.val := rfl
  have hA : ∀ k : Fin 128, iblk1 V c 0 t (ix2 p k) = V c main_v37 (ix2 ((((cfg1.win 5).blk t).view.emb (ix2 p q)) 0) k) := fun k => by
    show V c main_v37 (((cfg1.win 0).blk t).view.emb (ix2 p k)) = _
    refine congrArg (V c main_v37) (funext fun a => Fin.ext ?_)
    match a with
    | ⟨0, _⟩ => show win1_0.index t (0 : Fin 2) * 5000 + 1 * p.val = _; rw [hr]; omega
    | ⟨1, _⟩ => show win1_0.index t (1 : Fin 2) * 128 + 1 * k.val = k.val; omega
  have hH : ∀ k : Fin 128, iblk1 V c 1 t (ix2 p k) = V c main_v24 (ix2 ((((cfg1.win 5).blk t).view.emb (ix2 p q)) 0) k) := fun k => by
    show V c main_v24 (((cfg1.win 1).blk t).view.emb (ix2 p k)) = _
    refine congrArg (V c main_v24) (funext fun a => Fin.ext ?_)
    match a with
    | ⟨0, _⟩ => show win1_1.index t (0 : Fin 2) * 5000 + 1 * p.val = _; rw [hr]; omega
    | ⟨1, _⟩ => show win1_1.index t (1 : Fin 2) * 128 + 1 * k.val = k.val; omega
  have hWr : ∀ k : Fin 128, iblk1 V c 2 t (ix2 k q) = V c main_v39 (ix2 k ((((cfg1.win 5).blk t).view.emb (ix2 p q)) 1)) := fun k => by
    show V c main_v39 (((cfg1.win 2).blk t).view.emb (ix2 k q)) = _
    refine congrArg (V c main_v39) (funext fun a => Fin.ext ?_)
    match a with
    | ⟨0, _⟩ => show win1_2.index t (0 : Fin 2) * 128 + 1 * k.val = k.val; omega
    | ⟨1, _⟩ => show win1_2.index t (1 : Fin 2) * 128 + 1 * q.val = _; rw [hs]; omega
  have hWo : ∀ k : Fin 128, iblk1 V c 4 t (ix2 k q) = V c main_v43 (ix2 k ((((cfg1.win 5).blk t).view.emb (ix2 p q)) 1)) := fun k => by
    show V c main_v43 (((cfg1.win 4).blk t).view.emb (ix2 k q)) = _
    refine congrArg (V c main_v43) (funext fun a => Fin.ext ?_)
    match a with
    | ⟨0, _⟩ => show win1_4.index t (0 : Fin 2) * 128 + 1 * k.val = k.val; omega
    | ⟨1, _⟩ => show win1_4.index t (1 : Fin 2) * 128 + 1 * q.val = _; rw [hs]; omega
  have hb : iblk1 V c 3 t (ix2 (0 : Fin 1) q) = V c main_v44 (ix2 (0 : Fin 1) ((((cfg1.win 5).blk t).view.emb (ix2 p q)) 1)) := by
    show V c main_v44 (((cfg1.win 3).blk t).view.emb (ix2 (0 : Fin 1) q)) = _
    refine congrArg (V c main_v44) (funext fun a => Fin.ext ?_)
    match a with
    | ⟨0, _⟩ => show win1_3.index t (0 : Fin 2) * 1 + 1 * 0 = 0; omega
    | ⟨1, _⟩ => show win1_3.index t (1 : Fin 2) * 128 + 1 * q.val = _; rw [hs]; omega
  refine congrArg₂ (· + ·) (congrArg₂ (· + ·) (Finset.sum_congr rfl fun k _ => ?_) (Finset.sum_congr rfl fun k _ => ?_)) hb
  · exact congrArg₂ (· * ·) (hA k) (hWr k)
  · exact congrArg₂ (· * ·) (hH k) (hWo k)

/-- An index of the array is in grid point `t`'s tile iff each coordinate is in the tile's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v45).slice (win1_5.rect t)).set ↔ _
  rw [View.set_slice_whole, Rect.mem_set_unit]
  exact Iff.rfl

/-- The ten tiles of 5000 rows cover the 50000 rows: row `r` is in tile `r / 5000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  have ht : (i 0).val / 5000 < cfg1.N := by rw [hN]; omega
  refine ⟨⟨(i 0).val / 5000, ht⟩, flush1_5 _, ?_⟩
  rw [mem_blk]
  obtain ⟨-, -, -, -, -, -, -, -, -, -, e50, e51⟩ := idx_facts ⟨(i 0).val / 5000, ht⟩
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e51]
    omega

/-- The region's output array after the region: the layer's whole array of the arrays the region was entered with. -/
theorem final (c : Dev nD) :
    (dat1 V c).arrAt 5 cfg1.N
      = layer true (V c main_v37) (V c main_v24) (V c main_v39) (V c main_v43) (fun j => V c main_v44 (ix2 (0 : Fin 1) j)) :=
  (dat1 V c).arrAt_eq_of_cover 5 _ (fun t _ => flushed_eq V c t) (cover)

end Cert.KernelIdeal.Region1

end
-- ==== Proof.Region2.lean ====
/-
  Region 2 of the kernel program: one graph-convolution layer (the last: no activation), tiled over 10 tiles of 5000 rows.

  Entered with the buffers at contents `V`, the region leaves its output array at the layer's whole array of the arrays it
  reads: the tile body computes, for the tile's rows, the two matrix products into zero accumulators, their sum, the bias
  row; tile `t` reads rows 5000·t … 5000·t + 4999 of the two row-tiled inputs and the whole weights and bias, and writes
  the same rows of the output; the ten tiles cover every row.
-/
import proofs.«106743_j73589969649974_1_alg».proof.Proof.Gen.KernelIdeal.Frame
import proofs.«106743_j73589969649974_1_alg».proof.Proof.Layer

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv

-- the contents of the TensorCore's buffers when the region is entered
variable (V : (c : Dev nD) → (b : Ref sig .tc) → Buf (Elt Ideal) ((c : Thread nD τ).loc b))

theorem hz : (![0, 0] : Fin 2 → Nat) = fun _ => 0 := funext fun a => by fin_cases a <;> rfl

/-- The tile body's stored value at row `p`, lane `q` of the tile: the layer's value for the tile's rows. -/
theorem pay_apply (x0 x1 : Vec Ideal S5000x128 .f32) (x2 x4 : Vec Ideal S128x128 .f32) (x3 : Vec Ideal S1x128 .f32)
    (p : Fin 5000) (q : Fin 128) :
    k2_pay1 (F := Ideal) x0 x1 x2 x4 x3 (ix2 p q) = act false (pre x0 x1 x2 x4 (fun j => x3 (ix2 (0 : Fin 1) j)) p q) := by
  unfold k2_pay1
  simp only [shapeCast_self]
  exact tile_pre_apply dot_S5000x128_S128x128_S5000x128_1_0_0_1_n_n rfl x0 x1 x2 x4 x3 broadcasts_S1x128_S5000x128 p q

/-- The printed index maps, decided over the grid: the two row-tiled inputs move with the output tile, the weights and
    the bias row stay at block 0, and the output's block index on the row axis is the grid point. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What grid point `t` writes back is tile `t` of the layer's whole array, computed from the arrays as the region
    finds them. -/
theorem flushed_eq (c : Dev nD) (t : Fin cfg2.N) :
    (dat2 V c).flushed 5 t = ((cfg2.win 5).blk t).view.read (Elt Ideal)
      (layer false (V c main_v58) (V c main_v45) (V c main_v60) (V c main_v64) (fun j => V c main_v65 (ix2 (0 : Fin 1) j))) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext y
  obtain ⟨p, q, rfl⟩ : ∃ (p : Fin 5000) (q : Fin 128), y = ix2 p q := ⟨y 0, y 1, eq_ix2 y⟩
  show k2_pay1 (iblk2 V c 0 t) (iblk2 V c 1 t) (iblk2 V c 2 t) (iblk2 V c 4 t) (iblk2 V c 3 t) (ix2 p q)
    = act false (pre (V c main_v58) (V c main_v45) (V c main_v60) (V c main_v64) (fun j => V c main_v65 (ix2 (0 : Fin 1) j))
        ((((cfg2.win 5).blk t).view.emb (ix2 p q)) 0) ((((cfg2.win 5).blk t).view.emb (ix2 p q)) 1))
  refine (pay_apply (iblk2 V c 0 t) (iblk2 V c 1 t) (iblk2 V c 2 t) (iblk2 V c 4 t) (iblk2 V c 3 t) p q).trans ?_
  refine congrArg (act false) ?_
  unfold pre
  have hr : ((((cfg2.win 5).blk t).view.emb (ix2 p q)) 0).val = win2_5.index t (0 : Fin 2) * 5000 + 1 * p.val := rfl
  have hs : ((((cfg2.win 5).blk t).view.emb (ix2 p q)) 1).val = win2_5.index t (1 : Fin 2) * 128 + 1 * q.val := rfl
  have hA : ∀ k : Fin 128, iblk2 V c 0 t (ix2 p k) = V c main_v58 (ix2 ((((cfg2.win 5).blk t).view.emb (ix2 p q)) 0) k) := fun k => by
    show V c main_v58 (((cfg2.win 0).blk t).view.emb (ix2 p k)) = _
    refine congrArg (V c main_v58) (funext fun a => Fin.ext ?_)
    match a with
    | ⟨0, _⟩ => show win2_0.index t (0 : Fin 2) * 5000 + 1 * p.val = _; rw [hr]; omega
    | ⟨1, _⟩ => show win2_0.index t (1 : Fin 2) * 128 + 1 * k.val = k.val; omega
  have hH : ∀ k : Fin 128, iblk2 V c 1 t (ix2 p k) = V c main_v45 (ix2 ((((cfg2.win 5).blk t).view.emb (ix2 p q)) 0) k) := fun k => by
    show V c main_v45 (((cfg2.win 1).blk t).view.emb (ix2 p k)) = _
    refine congrArg (V c main_v45) (funext fun a => Fin.ext ?_)
    match a with
    | ⟨0, _⟩ => show win2_1.index t (0 : Fin 2) * 5000 + 1 * p.val = _; rw [hr]; omega
    | ⟨1, _⟩ => show win2_1.index t (1 : Fin 2) * 128 + 1 * k.val = k.val; omega
  have hWr : ∀ k : Fin 128, iblk2 V c 2 t (ix2 k q) = V c main_v60 (ix2 k ((((cfg2.win 5).blk t).view.emb (ix2 p q)) 1)) := fun k => by
    show V c main_v60 (((cfg2.win 2).blk t).view.emb (ix2 k q)) = _
    refine congrArg (V c main_v60) (funext fun a => Fin.ext ?_)
    match a with
    | ⟨0, _⟩ => show win2_2.index t (0 : Fin 2) * 128 + 1 * k.val = k.val; omega
    | ⟨1, _⟩ => show win2_2.index t (1 : Fin 2) * 128 + 1 * q.val = _; rw [hs]; omega
  have hWo : ∀ k : Fin 128, iblk2 V c 4 t (ix2 k q) = V c main_v64 (ix2 k ((((cfg2.win 5).blk t).view.emb (ix2 p q)) 1)) := fun k => by
    show V c main_v64 (((cfg2.win 4).blk t).view.emb (ix2 k q)) = _
    refine congrArg (V c main_v64) (funext fun a => Fin.ext ?_)
    match a with
    | ⟨0, _⟩ => show win2_4.index t (0 : Fin 2) * 128 + 1 * k.val = k.val; omega
    | ⟨1, _⟩ => show win2_4.index t (1 : Fin 2) * 128 + 1 * q.val = _; rw [hs]; omega
  have hb : iblk2 V c 3 t (ix2 (0 : Fin 1) q) = V c main_v65 (ix2 (0 : Fin 1) ((((cfg2.win 5).blk t).view.emb (ix2 p q)) 1)) := by
    show V c main_v65 (((cfg2.win 3).blk t).view.emb (ix2 (0 : Fin 1) q)) = _
    refine congrArg (V c main_v65) (funext fun a => Fin.ext ?_)
    match a with
    | ⟨0, _⟩ => show win2_3.index t (0 : Fin 2) * 1 + 1 * 0 = 0; omega
    | ⟨1, _⟩ => show win2_3.index t (1 : Fin 2) * 128 + 1 * q.val = _; rw [hs]; omega
  refine congrArg₂ (· + ·) (congrArg₂ (· + ·) (Finset.sum_congr rfl fun k _ => ?_) (Finset.sum_congr rfl fun k _ => ?_)) hb
  · exact congrArg₂ (· * ·) (hA k) (hWr k)
  · exact congrArg₂ (· * ·) (hH k) (hWo k)

/-- An index of the array is in grid point `t`'s tile iff each coordinate is in the tile's range on its axis. -/
theorem mem_blk (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v66).slice (win2_5.rect t)).set ↔ _
  rw [View.set_slice_whole, Rect.mem_set_unit]
  exact Iff.rfl

/-- The ten tiles of 5000 rows cover the 50000 rows: row `r` is in tile `r / 5000`. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  have ht : (i 0).val / 5000 < cfg2.N := by rw [hN]; omega
  refine ⟨⟨(i 0).val / 5000, ht⟩, flush2_5 _, ?_⟩
  rw [mem_blk]
  obtain ⟨-, -, -, -, -, -, -, -, -, -, e50, e51⟩ := idx_facts ⟨(i 0).val / 5000, ht⟩
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [e51]
    omega

/-- The region's output array after the region: the layer's whole array of the arrays the region was entered with. -/
theorem final (c : Dev nD) :
    (dat2 V c).arrAt 5 cfg2.N
      = layer false (V c main_v58) (V c main_v45) (V c main_v60) (V c main_v64) (fun j => V c main_v65 (ix2 (0 : Fin 1) j)) :=
  (dat2 V c).arrAt_eq_of_cover 5 _ (fun t _ => flushed_eq V c t) (cover)

end Cert.KernelIdeal.Region2

end
-- ==== Proof.KernelChain.lean ====
/-
  The kernel program's result, read back through its three regions.

  The buffer contents at the region boundaries are a fold from the launch memory.  Each stretch of host operations
  slices the layer's weights and bias out of the stacked arguments and computes the layer's messages from the
  features entering the layer (the argument `x` for the first layer, the previous region's output for the others) by
  a gather, a product with the broadcast edge weights and a scatter-add into zeros; the two index rows of the edge
  list are cut once, in the first stretch, and no later operation or region writes them, nor any argument.  Each region
  leaves its output array at the layer's whole array of the arrays it reads.  So the result array ends at the three
  layers of `Cert.GraphConv.net`, the messages taken as one unopened function of the features.
-/
import proofs.«106743_j73589969649974_1_alg».proof.Proof.Region0
import proofs.«106743_j73589969649974_1_alg».proof.Proof.Region1
import proofs.«106743_j73589969649974_1_alg».proof.Proof.Region2
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.GraphConv

/-- A buffer no operation of a stretch writes holds after the stretch what it held before. -/
macro "not_written " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-- The messages aggregated at each node, from the two index rows `e0` (sources) and `e1` (destinations), the edge
    weights and the features: gather the source rows (a negative source index wrapped by the node count), scale each
    by its edge weight, scatter-add into the destination rows. -/
def aggE (e0 e1 : IVec S800000 32) (w : FVec Ideal S800000 .f32) (h : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 e1)
    (mulf
      (Host.gather gather_S50000x128_S800000x1_S800000x128_1_0_n_n_0_1_1128 h
        (broadcastInDim S800000x1 ![0] bcast_S800000_S800000x1_0
          (select (cmpi .slt e0 (broadcastInDim S800000 ![] bcast_S_S800000 (constantI S_ 32 0#32)))
            (addi e0 (broadcastInDim S800000 ![] bcast_S_S800000 (constantI S_ 32 50000#32))) e0)))
      (broadcastInDim S800000x128 ![0, 1] bcast_S800000x1_S800000x128_0_1
        (broadcastInDim S800000x1 ![0] bcast_S800000_S800000x1_0 w)))

/-- Row `0` (sources) and row `1` (destinations) of the edge list. -/
def sl0 (ei : IVec S2x800000 32) : IVec S800000 32 :=
  shapeCast _ (extractStridedSlice S1x800000 ![0, 0] ei slices_S2x800000_S1x800000_0_0) shapeCasts_S1x800000_S800000
def sl1 (ei : IVec S2x800000 32) : IVec S800000 32 :=
  shapeCast _ (extractStridedSlice S1x800000 ![1, 0] ei slices_S2x800000_S1x800000_1_0) shapeCasts_S1x800000_S800000

/-- Matrix `k` of a stack of three. -/
def wk0 (W : FVec Ideal S3x128x128 .f32) : FVec Ideal S128x128 .f32 :=
  shapeCast _ (extractStridedSlice S1x128x128 ![0, 0, 0] W slices_S3x128x128_S1x128x128_0_0_0) shapeCasts_S1x128x128_S128x128
def wk1 (W : FVec Ideal S3x128x128 .f32) : FVec Ideal S128x128 .f32 :=
  shapeCast _ (extractStridedSlice S1x128x128 ![1, 0, 0] W slices_S3x128x128_S1x128x128_1_0_0) shapeCasts_S1x128x128_S128x128
def wk2 (W : FVec Ideal S3x128x128 .f32) : FVec Ideal S128x128 .f32 :=
  shapeCast _ (extractStridedSlice S1x128x128 ![2, 0, 0] W slices_S3x128x128_S1x128x128_2_0_0) shapeCasts_S1x128x128_S128x128
/-- Bias `k` of a stack of three, as a length-128 vector. -/
def bv0 (B : FVec Ideal S3x128 .f32) : FVec Ideal S128 .f32 :=
  shapeCast _ (extractStridedSlice S1x128 ![0, 0] B slices_S3x128_S1x128_0_0) shapeCasts_S1x128_S128
def bv1 (B : FVec Ideal S3x128 .f32) : FVec Ideal S128 .f32 :=
  shapeCast _ (extractStridedSlice S1x128 ![1, 0] B slices_S3x128_S1x128_1_0) shapeCasts_S1x128_S128
def bv2 (B : FVec Ideal S3x128 .f32) : FVec Ideal S128 .f32 :=
  shapeCast _ (extractStridedSlice S1x128 ![2, 0] B slices_S3x128_S1x128_2_0) shapeCasts_S1x128_S128
/-- The same as the 1×128 row the region stages. -/
def brow (b : FVec Ideal S128 .f32) : FVec Ideal S1x128 .f32 := shapeCast _ b shapeCasts_S128_S1x128

variable (m : (ℓ : Loc nD τ sig) → Buf (Elt Ideal) ℓ) (ρ : Dev nD → PrngReg)

/-- The argument arrays at launch. -/
abbrev a0 (c : Dev nD) : FVec Ideal S50000x128 .f32 := m ((c.tc : Thread nD τ).loc main_arg0)
abbrev a1 (c : Dev nD) : IVec S2x800000 32 := m ((c.tc : Thread nD τ).loc main_arg1)
abbrev a2 (c : Dev nD) : FVec Ideal S800000 .f32 := m ((c.tc : Thread nD τ).loc main_arg2)
abbrev a3 (c : Dev nD) : FVec Ideal S3x128x128 .f32 := m ((c.tc : Thread nD τ).loc main_arg3)
abbrev a4 (c : Dev nD) : FVec Ideal S3x128 .f32 := m ((c.tc : Thread nD τ).loc main_arg4)
abbrev a5 (c : Dev nD) : FVec Ideal S3x128x128 .f32 := m ((c.tc : Thread nD τ).loc main_arg5)
abbrev E0 (c : Dev nD) : IVec S800000 32 := sl0 (a1 m c)
abbrev E1 (c : Dev nD) : IVec S800000 32 := sl1 (a1 m c)

/-- The features after the first and the second layer. -/
def H1 (c : Dev nD) : FVec Ideal S50000x128 .f32 :=
  layer true (aggE (E0 m c) (E1 m c) (a2 m c) (a0 m c)) (a0 m c) (wk0 (a3 m c)) (wk0 (a5 m c)) (fun j => brow (bv0 (a4 m c)) (ix2 (0 : Fin 1) j))
def H2 (c : Dev nD) : FVec Ideal S50000x128 .f32 :=
  layer true (aggE (E0 m c) (E1 m c) (a2 m c) (H1 m c)) (H1 m c) (wk1 (a3 m c)) (wk1 (a5 m c)) (fun j => brow (bv1 (a4 m c)) (ix2 (0 : Fin 1) j))

/-! ## What every stretch and region carries unchanged: the two index rows and the arguments -/

theorem W1_v1 (c : Dev nD) : (W1 m ρ c (Proc.devRef .tc main_v1) : IVec S800000 32) = E0 m c := by
  dsimp only [W1, hostOps0]; after_results; all_goals rfl
theorem W2_v1 (c : Dev nD) : (W2 m ρ c (Proc.devRef .tc main_v1) : IVec S800000 32) = E0 m c :=
  (W2_of_ne m ρ c main_v1 (by decide)).trans (W1_v1 m ρ c)
theorem W3_v1 (c : Dev nD) : (W3 m ρ c (Proc.devRef .tc main_v1) : IVec S800000 32) = E0 m c :=
  (show W3 m ρ c (Proc.devRef .tc main_v1) = W2 m ρ c (Proc.devRef .tc main_v1) by not_written hostOps1).trans (W2_v1 m ρ c)
theorem W4_v1 (c : Dev nD) : (W4 m ρ c (Proc.devRef .tc main_v1) : IVec S800000 32) = E0 m c :=
  (W4_of_ne m ρ c main_v1 (by decide)).trans (W3_v1 m ρ c)
theorem W1_v3 (c : Dev nD) : (W1 m ρ c (Proc.devRef .tc main_v3) : IVec S800000 32) = E1 m c := by
  dsimp only [W1, hostOps0]; after_results; all_goals rfl
theorem W2_v3 (c : Dev nD) : (W2 m ρ c (Proc.devRef .tc main_v3) : IVec S800000 32) = E1 m c :=
  (W2_of_ne m ρ c main_v3 (by decide)).trans (W1_v3 m ρ c)
theorem W3_v3 (c : Dev nD) : (W3 m ρ c (Proc.devRef .tc main_v3) : IVec S800000 32) = E1 m c :=
  (show W3 m ρ c (Proc.devRef .tc main_v3) = W2 m ρ c (Proc.devRef .tc main_v3) by not_written hostOps1).trans (W2_v3 m ρ c)
theorem W4_v3 (c : Dev nD) : (W4 m ρ c (Proc.devRef .tc main_v3) : IVec S800000 32) = E1 m c :=
  (W4_of_ne m ρ c main_v3 (by decide)).trans (W3_v3 m ρ c)
theorem W1_arg2 (c : Dev nD) : (W1 m ρ c (Proc.devRef .tc main_arg2) : FVec Ideal S800000 .f32) = a2 m c := by
  dsimp only [W1, hostOps0]; after_results; all_goals rfl
theorem W2_arg2 (c : Dev nD) : (W2 m ρ c (Proc.devRef .tc main_arg2) : FVec Ideal S800000 .f32) = a2 m c :=
  (W2_of_ne m ρ c main_arg2 (by decide)).trans (W1_arg2 m ρ c)
theorem W3_arg2 (c : Dev nD) : (W3 m ρ c (Proc.devRef .tc main_arg2) : FVec Ideal S800000 .f32) = a2 m c :=
  (show W3 m ρ c (Proc.devRef .tc main_arg2) = W2 m ρ c (Proc.devRef .tc main_arg2) by not_written hostOps1).trans (W2_arg2 m ρ c)
theorem W4_arg2 (c : Dev nD) : (W4 m ρ c (Proc.devRef .tc main_arg2) : FVec Ideal S800000 .f32) = a2 m c :=
  (W4_of_ne m ρ c main_arg2 (by decide)).trans (W3_arg2 m ρ c)
theorem W1_arg3 (c : Dev nD) : (W1 m ρ c (Proc.devRef .tc main_arg3) : FVec Ideal S3x128x128 .f32) = a3 m c := by
  dsimp only [W1, hostOps0]; after_results; all_goals rfl
theorem W2_arg3 (c : Dev nD) : (W2 m ρ c (Proc.devRef .tc main_arg3) : FVec Ideal S3x128x128 .f32) = a3 m c :=
  (W2_of_ne m ρ c main_arg3 (by decide)).trans (W1_arg3 m ρ c)
theorem W3_arg3 (c : Dev nD) : (W3 m ρ c (Proc.devRef .tc main_arg3) : FVec Ideal S3x128x128 .f32) = a3 m c :=
  (show W3 m ρ c (Proc.devRef .tc main_arg3) = W2 m ρ c (Proc.devRef .tc main_arg3) by not_written hostOps1).trans (W2_arg3 m ρ c)
theorem W4_arg3 (c : Dev nD) : (W4 m ρ c (Proc.devRef .tc main_arg3) : FVec Ideal S3x128x128 .f32) = a3 m c :=
  (W4_of_ne m ρ c main_arg3 (by decide)).trans (W3_arg3 m ρ c)
theorem W1_arg4 (c : Dev nD) : (W1 m ρ c (Proc.devRef .tc main_arg4) : FVec Ideal S3x128 .f32) = a4 m c := by
  dsimp only [W1, hostOps0]; after_results; all_goals rfl
theorem W2_arg4 (c : Dev nD) : (W2 m ρ c (Proc.devRef .tc main_arg4) : FVec Ideal S3x128 .f32) = a4 m c :=
  (W2_of_ne m ρ c main_arg4 (by decide)).trans (W1_arg4 m ρ c)
theorem W3_arg4 (c : Dev nD) : (W3 m ρ c (Proc.devRef .tc main_arg4) : FVec Ideal S3x128 .f32) = a4 m c :=
  (show W3 m ρ c (Proc.devRef .tc main_arg4) = W2 m ρ c (Proc.devRef .tc main_arg4) by not_written hostOps1).trans (W2_arg4 m ρ c)
theorem W4_arg4 (c : Dev nD) : (W4 m ρ c (Proc.devRef .tc main_arg4) : FVec Ideal S3x128 .f32) = a4 m c :=
  (W4_of_ne m ρ c main_arg4 (by decide)).trans (W3_arg4 m ρ c)
theorem W1_arg5 (c : Dev nD) : (W1 m ρ c (Proc.devRef .tc main_arg5) : FVec Ideal S3x128x128 .f32) = a5 m c := by
  dsimp only [W1, hostOps0]; after_results; all_goals rfl
theorem W2_arg5 (c : Dev nD) : (W2 m ρ c (Proc.devRef .tc main_arg5) : FVec Ideal S3x128x128 .f32) = a5 m c :=
  (W2_of_ne m ρ c main_arg5 (by decide)).trans (W1_arg5 m ρ c)
theorem W3_arg5 (c : Dev nD) : (W3 m ρ c (Proc.devRef .tc main_arg5) : FVec Ideal S3x128x128 .f32) = a5 m c :=
  (show W3 m ρ c (Proc.devRef .tc main_arg5) = W2 m ρ c (Proc.devRef .tc main_arg5) by not_written hostOps1).trans (W2_arg5 m ρ c)
theorem W4_arg5 (c : Dev nD) : (W4 m ρ c (Proc.devRef .tc main_arg5) : FVec Ideal S3x128x128 .f32) = a5 m c :=
  (W4_of_ne m ρ c main_arg5 (by decide)).trans (W3_arg5 m ρ c)

/-! ## The first stretch and region -/

set_option maxHeartbeats 4000000 in
theorem V1_v16 (c : Dev nD) : (V1 m ρ c main_v16 : FVec Ideal S50000x128 .f32) = aggE (E0 m c) (E1 m c) (a2 m c) (a0 m c) := by
  dsimp only [V1, W1, hostOps0]; after_results; all_goals rfl
theorem V1_arg0 (c : Dev nD) : (V1 m ρ c main_arg0 : FVec Ideal S50000x128 .f32) = a0 m c := by
  dsimp only [V1, W1, hostOps0]; after_results; all_goals rfl
theorem V1_v18 (c : Dev nD) : (V1 m ρ c main_v18 : FVec Ideal S128x128 .f32) = wk0 (a3 m c) := by
  dsimp only [V1, W1, hostOps0]; after_results; all_goals rfl
theorem V1_v22 (c : Dev nD) : (V1 m ρ c main_v22 : FVec Ideal S128x128 .f32) = wk0 (a5 m c) := by
  dsimp only [V1, W1, hostOps0]; after_results; all_goals rfl
theorem V1_v23 (c : Dev nD) : (V1 m ρ c main_v23 : FVec Ideal S1x128 .f32) = brow (bv0 (a4 m c)) := by
  dsimp only [V1, W1, hostOps0]; after_results; all_goals rfl

theorem W2_v24 (c : Dev nD) : (W2 m ρ c (Proc.devRef .tc main_v24) : FVec Ideal S50000x128 .f32) = H1 m c :=
  (W2_arr m ρ c 5).trans ((Region0.final (V1 m ρ) c).trans (by
    rw [V1_v16, V1_arg0, V1_v18, V1_v22, V1_v23]; rfl))

/-! ## The second stretch and region -/

theorem V3_v24 (c : Dev nD) : (V3 m ρ c main_v24 : FVec Ideal S50000x128 .f32) = H1 m c :=
  (show W3 m ρ c (Proc.devRef .tc main_v24) = W2 m ρ c (Proc.devRef .tc main_v24) by not_written hostOps1).trans (W2_v24 m ρ c)
set_option maxHeartbeats 4000000 in
theorem V3_v37 (c : Dev nD) : (V3 m ρ c main_v37 : FVec Ideal S50000x128 .f32) = aggE (E0 m c) (E1 m c) (a2 m c) (H1 m c) := by
  have h : (V3 m ρ c main_v37 : FVec Ideal S50000x128 .f32) = aggE (W2 m ρ c (Proc.devRef .tc main_v1)) (W2 m ρ c (Proc.devRef .tc main_v3))
      (W2 m ρ c (Proc.devRef .tc main_arg2)) (W2 m ρ c (Proc.devRef .tc main_v24)) := by
    dsimp only [V3, W3, hostOps1]; after_results; all_goals rfl
  rw [h, W2_v1, W2_v3, W2_arg2, W2_v24]
theorem V3_v39 (c : Dev nD) : (V3 m ρ c main_v39 : FVec Ideal S128x128 .f32) = wk1 (a3 m c) := by
  have h : (V3 m ρ c main_v39 : FVec Ideal S128x128 .f32) = wk1 (W2 m ρ c (Proc.devRef .tc main_arg3)) := by
    dsimp only [V3, W3, hostOps1]; after_results; all_goals rfl
  rw [h, W2_arg3]
theorem V3_v43 (c : Dev nD) : (V3 m ρ c main_v43 : FVec Ideal S128x128 .f32) = wk1 (a5 m c) := by
  have h : (V3 m ρ c main_v43 : FVec Ideal S128x128 .f32) = wk1 (W2 m ρ c (Proc.devRef .tc main_arg5)) := by
    dsimp only [V3, W3, hostOps1]; after_results; all_goals rfl
  rw [h, W2_arg5]
theorem V3_v44 (c : Dev nD) : (V3 m ρ c main_v44 : FVec Ideal S1x128 .f32) = brow (bv1 (a4 m c)) := by
  have h : (V3 m ρ c main_v44 : FVec Ideal S1x128 .f32) = brow (bv1 (W2 m ρ c (Proc.devRef .tc main_arg4))) := by
    dsimp only [V3, W3, hostOps1]; after_results; all_goals rfl
  rw [h, W2_arg4]

theorem W4_v45 (c : Dev nD) : (W4 m ρ c (Proc.devRef .tc main_v45) : FVec Ideal S50000x128 .f32) = H2 m c :=
  (W4_arr m ρ c 5).trans ((Region1.final (V3 m ρ) c).trans (by
    rw [V3_v37, V3_v24, V3_v39, V3_v43, V3_v44]; rfl))

/-! ## The third stretch and region -/

theorem V5_v45 (c : Dev nD) : (V5 m ρ c main_v45 : FVec Ideal S50000x128 .f32) = H2 m c :=
  (show W5 m ρ c (Proc.devRef .tc main_v45) = W4 m ρ c (Proc.devRef .tc main_v45) by not_written hostOps2).trans (W4_v45 m ρ c)
set_option maxHeartbeats 4000000 in
theorem V5_v58 (c : Dev nD) : (V5 m ρ c main_v58 : FVec Ideal S50000x128 .f32) = aggE (E0 m c) (E1 m c) (a2 m c) (H2 m c) := by
  have h : (V5 m ρ c main_v58 : FVec Ideal S50000x128 .f32) = aggE (W4 m ρ c (Proc.devRef .tc main_v1)) (W4 m ρ c (Proc.devRef .tc main_v3))
      (W4 m ρ c (Proc.devRef .tc main_arg2)) (W4 m ρ c (Proc.devRef .tc main_v45)) := by
    dsimp only [V5, W5, hostOps2]; after_results; all_goals rfl
  rw [h, W4_v1, W4_v3, W4_arg2, W4_v45]
theorem V5_v60 (c : Dev nD) : (V5 m ρ c main_v60 : FVec Ideal S128x128 .f32) = wk2 (a3 m c) := by
  have h : (V5 m ρ c main_v60 : FVec Ideal S128x128 .f32) = wk2 (W4 m ρ c (Proc.devRef .tc main_arg3)) := by
    dsimp only [V5, W5, hostOps2]; after_results; all_goals rfl
  rw [h, W4_arg3]
theorem V5_v64 (c : Dev nD) : (V5 m ρ c main_v64 : FVec Ideal S128x128 .f32) = wk2 (a5 m c) := by
  have h : (V5 m ρ c main_v64 : FVec Ideal S128x128 .f32) = wk2 (W4 m ρ c (Proc.devRef .tc main_arg5)) := by
    dsimp only [V5, W5, hostOps2]; after_results; all_goals rfl
  rw [h, W4_arg5]
theorem V5_v65 (c : Dev nD) : (V5 m ρ c main_v65 : FVec Ideal S1x128 .f32) = brow (bv2 (a4 m c)) := by
  have h : (V5 m ρ c main_v65 : FVec Ideal S1x128 .f32) = brow (bv2 (W4 m ρ c (Proc.devRef .tc main_arg4))) := by
    dsimp only [V5, W5, hostOps2]; after_results; all_goals rfl
  rw [h, W4_arg4]

/-- The result array after the run: the three layers. -/
theorem result (c : Dev nD) :
    (W6 m ρ c (Proc.devRef .tc main_v66) : FVec Ideal S50000x128 .f32)
      = net (aggE (E0 m c) (E1 m c) (a2 m c)) (a0 m c) (wk0 (a3 m c)) (wk0 (a5 m c)) (wk1 (a3 m c)) (wk1 (a5 m c))
          (wk2 (a3 m c)) (wk2 (a5 m c)) (fun j => brow (bv0 (a4 m c)) (ix2 (0 : Fin 1) j))
          (fun j => brow (bv1 (a4 m c)) (ix2 (0 : Fin 1) j)) (fun j => brow (bv2 (a4 m c)) (ix2 (0 : Fin 1) j)) :=
  (W6_arr m ρ c 5).trans ((Region2.final (V5 m ρ) c).trans (by
    rw [V5_v58, V5_v45, V5_v60, V5_v64, V5_v65]; rfl))

end Cert.KernelIdeal.Chain

end
-- ==== Proof.RefNet.lean ====
/-
  The reference program's result as three graph-convolution layers.

  The reference's composed term is, layer by layer: the messages `segment_sum(h[src] * w)` of the features `h`
  (a host gather, a product with the broadcast edge weights, a host scatter-add into zeros), two `dot_general`s, the
  bias broadcast over the rows added to the first product, the second product added last, and `max · 0` after the
  first two layers.  Index by index that is `Cert.GraphConv.net` over the messages taken as ONE unopened function of
  the features.
-/
import proofs.«106743_j73589969649974_1_alg».proof.Proof.Gen.ReferenceIdeal.Run
import proofs.«106743_j73589969649974_1_alg».proof.Proof.Layer

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.GraphConv

/-- The messages aggregated at each node: gather the source rows, scale each by its edge weight, scatter-add into the
    destination rows. The source index is the first row of the edge list (a negative entry wrapped by the node count),
    the destination index the second. -/
def hostAgg (ei : IVec S2x800000 32) (w : FVec Ideal S800000 .f32)
    (h : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast _ (extractStridedSlice S1x800000 ![1, 0] ei slices_S2x800000_S1x800000_1_0) shapeCasts_S1x800000_S800000))
    (mulf
      (Host.gather gather_S50000x128_S800000x1_S800000x128_1_0_n_n_0_1_1128 h
        (broadcastInDim S800000x1 ![0] bcast_S800000_S800000x1_0
          (select
            (cmpi .slt (shapeCast _ (extractStridedSlice S1x800000 ![0, 0] ei slices_S2x800000_S1x800000_0_0) shapeCasts_S1x800000_S800000)
              (broadcastInDim S800000 ![] bcast_S_S800000 (constantI S_ 32 0#32)))
            (addi (shapeCast _ (extractStridedSlice S1x800000 ![0, 0] ei slices_S2x800000_S1x800000_0_0) shapeCasts_S1x800000_S800000)
              (broadcastInDim S800000 ![] bcast_S_S800000 (constantI S_ 32 50000#32)))
            (shapeCast _ (extractStridedSlice S1x800000 ![0, 0] ei slices_S2x800000_S1x800000_0_0) shapeCasts_S1x800000_S800000))))
      (broadcastInDim S800000x128 ![0, 1] bcast_S800000x1_S800000x128_0_1
        (broadcastInDim S800000x1 ![0] bcast_S800000_S800000x1_0 w)))

/-- One layer before its activation, in the host's spelling. -/
def hostLin (A H : FVec Ideal S50000x128 .f32) (Wr Wo : FVec Ideal S128x128 .f32)
    (b : FVec Ideal S128 .f32) : FVec Ideal S50000x128 .f32 :=
  addf (addf (Host.dotGeneral (F := Ideal) dot_S50000x128_S128x128_S50000x128_1_0_0_1_n_n none A Wr)
      (broadcastInDim S50000x128 ![0, 1] bcast_S1x128_S50000x128_0_1 (broadcastInDim S1x128 ![1] bcast_S128_S1x128_1 b)))
    (Host.dotGeneral (F := Ideal) dot_S50000x128_S128x128_S50000x128_1_0_0_1_n_n none H Wo)

/-- The host's activation: the maximum with the zero splat. -/
def hostRelu (Z : FVec Ideal S50000x128 .f32) : FVec Ideal S50000x128 .f32 :=
  maximumf (F := Ideal) Z (broadcastInDim S50000x128 ![] bcast_S_S50000x128 (constant (F := Ideal) S_ .f32 0x00000000#32))

/-- The bias row broadcast over the rows reads, at `(r, j)`, the bias at `j`. -/
theorem bias_apply (b : FVec Ideal S128 .f32) (r : Fin 50000) (j : Fin 128) :
    broadcastInDim S50000x128 ![0, 1] bcast_S1x128_S50000x128_0_1 (broadcastInDim S1x128 ![1] bcast_S128_S1x128_1 b) (ix2 r j)
      = b (ix1 j) := by
  refine (broadcastInDim_apply _ bcast_S1x128_S50000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ bcast_S128_S1x128_1 b (ix2 (0 : Fin 1) j) (ix1 j) (fun a => match a with
    | ⟨0, _⟩ => by show j.val = if (128 : Nat) = 1 then 0 else j.val; rw [if_neg (by decide)])

/-- The host's layer without activation is the layer's whole array. -/
theorem hostLin_eq (A H : FVec Ideal S50000x128 .f32) (Wr Wo : FVec Ideal S128x128 .f32)
    (b : FVec Ideal S128 .f32) :
    hostLin A H Wr Wo b = layer false A H Wr Wo (fun j => b (ix1 j)) := by
  funext i
  obtain ⟨r, j, rfl⟩ : ∃ (r : Fin 50000) (j : Fin 128), i = ix2 r j := ⟨i 0, i 1, eq_ix2 i⟩
  unfold hostLin
  exact host_pre_apply dot_S50000x128_S128x128_S50000x128_1_0_0_1_n_n rfl A H Wr Wo _ (fun j => b (ix1 j))
    (fun r j => bias_apply b r j) r j

/-- The host's activation at an index: the maximum with zero. -/
theorem hostRelu_apply (Z : FVec Ideal S50000x128 .f32) (i : S50000x128.Idx) :
    hostRelu Z i = max (Z i) 0 := by
  unfold hostRelu
  show max (Z i) (broadcastInDim S50000x128 ![] bcast_S_S50000x128 (constant (F := Ideal) S_ .f32 0x00000000#32) i) = _
  rw [broadcastInDim_apply _ bcast_S_S50000x128 _ i (fun a => a.elim0) (fun a => a.elim0)]
  show max (Z i) (Ideal.ofBits .f32 0x00000000#32) = _
  rw [Ideal.ofBits_zero_f32]

/-- With the activation. -/
theorem hostRelu_hostLin_eq (A H : FVec Ideal S50000x128 .f32) (Wr Wo : FVec Ideal S128x128 .f32)
    (b : FVec Ideal S128 .f32) :
    hostRelu (hostLin A H Wr Wo b) = layer true A H Wr Wo (fun j => b (ix1 j)) := by
  rw [hostLin_eq]
  funext i
  rw [hostRelu_apply]
  rfl

/-- The `k`-th 128×128 matrix of a stack of three. -/
abbrev w0 (W : FVec Ideal S3x128x128 .f32) : FVec Ideal S128x128 .f32 :=
  shapeCast _ (extractStridedSlice S1x128x128 ![0, 0, 0] W slices_S3x128x128_S1x128x128_0_0_0) shapeCasts_S1x128x128_S128x128
abbrev w1 (W : FVec Ideal S3x128x128 .f32) : FVec Ideal S128x128 .f32 :=
  shapeCast _ (extractStridedSlice S1x128x128 ![1, 0, 0] W slices_S3x128x128_S1x128x128_1_0_0) shapeCasts_S1x128x128_S128x128
abbrev w2 (W : FVec Ideal S3x128x128 .f32) : FVec Ideal S128x128 .f32 :=
  shapeCast _ (extractStridedSlice S1x128x128 ![2, 0, 0] W slices_S3x128x128_S1x128x128_2_0_0) shapeCasts_S1x128x128_S128x128
/-- The `k`-th bias of a stack of three. -/
abbrev bs0 (B : FVec Ideal S3x128 .f32) : FVec Ideal S128 .f32 :=
  shapeCast _ (extractStridedSlice S1x128 ![0, 0] B slices_S3x128_S1x128_0_0) shapeCasts_S1x128_S128
abbrev bs1 (B : FVec Ideal S3x128 .f32) : FVec Ideal S128 .f32 :=
  shapeCast _ (extractStridedSlice S1x128 ![1, 0] B slices_S3x128_S1x128_1_0) shapeCasts_S1x128_S128
abbrev bs2 (B : FVec Ideal S3x128 .f32) : FVec Ideal S128 .f32 :=
  shapeCast _ (extractStridedSlice S1x128 ![2, 0] B slices_S3x128_S1x128_2_0) shapeCasts_S1x128_S128

/-- The reference's three layers, in its own spelling. -/
def hostNet (x0 : FVec Ideal S50000x128 .f32) (x1 : IVec S2x800000 32)
    (x2 : FVec Ideal S800000 .f32) (x3 : FVec Ideal S3x128x128 .f32)
    (x4 : FVec Ideal S3x128 .f32) (x5 : FVec Ideal S3x128x128 .f32) :
    FVec Ideal S50000x128 .f32 :=
  hostLin
    (hostAgg x1 x2 (hostRelu (hostLin (hostAgg x1 x2 (hostRelu (hostLin (hostAgg x1 x2 x0) x0 (w0 x3) (w0 x5) (bs0 x4))))
      (hostRelu (hostLin (hostAgg x1 x2 x0) x0 (w0 x3) (w0 x5) (bs0 x4))) (w1 x3) (w1 x5) (bs1 x4))))
    (hostRelu (hostLin (hostAgg x1 x2 (hostRelu (hostLin (hostAgg x1 x2 x0) x0 (w0 x3) (w0 x5) (bs0 x4))))
      (hostRelu (hostLin (hostAgg x1 x2 x0) x0 (w0 x3) (w0 x5) (bs0 x4))) (w1 x3) (w1 x5) (bs1 x4)))
    (w2 x3) (w2 x5) (bs2 x4)

set_option maxRecDepth 262144 in
/-- The generated run's result term is that composition. -/
theorem res_eq (m : (ℓ : Loc nD τ sig) → Buf (Elt Ideal) ℓ) (c : Dev nD) :
    Cert.ReferenceIdeal.Value.res_main_v80 (F := Ideal) m c
      = hostNet (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_main_v80 hostNet hostLin hostRelu hostAgg
  rfl

/-- Index by index the reference's result is the three layers of `Cert.GraphConv.net`. -/
theorem hostNet_eq (x0 : FVec Ideal S50000x128 .f32) (x1 : IVec S2x800000 32)
    (x2 : FVec Ideal S800000 .f32) (x3 : FVec Ideal S3x128x128 .f32)
    (x4 : FVec Ideal S3x128 .f32) (x5 : FVec Ideal S3x128x128 .f32) :
    hostNet x0 x1 x2 x3 x4 x5
      = net (hostAgg x1 x2) x0 (w0 x3) (w0 x5) (w1 x3) (w1 x5) (w2 x3) (w2 x5)
          (fun j => bs0 x4 (ix1 j)) (fun j => bs1 x4 (ix1 j)) (fun j => bs2 x4 (ix1 j)) := by
  unfold hostNet net
  rw [hostRelu_hostLin_eq, hostRelu_hostLin_eq, hostLin_eq]

end Cert.ReferenceIdeal.RefValue

end
-- ==== Proof.lean ====
/-
  The certificate of a three-layer graph convolution: a kernel program that computes each layer's dense part in a
  row-tiled kernel (three regions) against a plain reference.

  Each layer takes the features `h` (50000 nodes × 128), aggregates for every node the features of its in-neighbours
  scaled by the edge weights (a gather, a product, a scatter-add: the same host operations in both programs), and
  returns `agg·W_rel + b + h·W_root`, followed by `max · 0` in the first two layers.  The kernel's tile body adds the two
  matrix products first and the bias row last, and rounds the operands of the products to bf16; the reference adds the
  bias to the first product and the second product last.  At the ideal values a change of float format is the
  identity, a matrix product is the exact sum over the contracted index, and addition of extended reals is commutative
  and associative at the infinities too, so both programs compute `Cert.GraphConv.net`, index by index; the
  precondition (finite inputs) is not used.

  * the frames of the two kernel programs are the generated frame certificates (`Gen.frame`); the reference's is its
    generated run with the result dropped;
  * `preserves` is `True`: the ideal pass rewrote nothing;
  * `algebraic`: the kernel's run with its result named (KernelRun), read back through the three regions to the three
    layers (Region0–2, KernelChain), meets the reference's generated run, whose result term is the same three
    layers (RefNet).
-/
import proofs.«106743_j73589969649974_1_alg».proof.Defs
import proofs.«106743_j73589969649974_1_alg».proof.Proof.Gen.Kernel
import proofs.«106743_j73589969649974_1_alg».proof.Proof.Gen.Kernel.Skeleton
import proofs.«106743_j73589969649974_1_alg».proof.Proof.Gen.Kernel.Launch
import proofs.«106743_j73589969649974_1_alg».proof.Proof.Gen.Kernel.Points
import proofs.«106743_j73589969649974_1_alg».proof.Proof.Gen.Kernel.Frame
import proofs.«106743_j73589969649974_1_alg».proof.Proof.Gen.KernelIdeal
import proofs.«106743_j73589969649974_1_alg».proof.Proof.Gen.KernelIdeal.Skeleton
import proofs.«106743_j73589969649974_1_alg».proof.Proof.Gen.KernelIdeal.Launch
import proofs.«106743_j73589969649974_1_alg».proof.Proof.Gen.KernelIdeal.Points
import proofs.«106743_j73589969649974_1_alg».proof.Proof.Gen.KernelIdeal.Frame
import proofs.«106743_j73589969649974_1_alg».proof.Proof.Gen.ReferenceIdeal
import proofs.«106743_j73589969649974_1_alg».proof.Proof.Gen.ReferenceIdeal.Run
import proofs.«106743_j73589969649974_1_alg».proof.Proof.Gen.Pre_finite_inputs
import proofs.«106743_j73589969649974_1_alg».proof.Proof.KernelRun
import proofs.«106743_j73589969649974_1_alg».proof.Proof.KernelChain
import proofs.«106743_j73589969649974_1_alg».proof.Proof.RefNet
import Idealize.ShloMosaic.Adequacy
import Idealize.ShloMosaic.Init

set_option maxRecDepth 16384

noncomputable section

namespace Cert.Proof

open Idealize.ShloMosaic Idealize.ShloMosaic.ValueIdx Idealize.SL.Sem

/-- The two programs' spellings of the three layers are one function of the argument arrays: the messages are the same
    host operations, the weight slices the same, and a bias cast to a 1×128 row reads at `(0, j)` what the vector
    reads at `j`. -/
theorem nets_agree (x0 : FVec Ideal Cert.KernelIdeal.S50000x128 .f32) (x1 : IVec Cert.KernelIdeal.S2x800000 32)
    (x2 : FVec Ideal Cert.KernelIdeal.S800000 .f32) (x3 : FVec Ideal Cert.KernelIdeal.S3x128x128 .f32)
    (x4 : FVec Ideal Cert.KernelIdeal.S3x128 .f32) (x5 : FVec Ideal Cert.KernelIdeal.S3x128x128 .f32) :
    Cert.GraphConv.net (Cert.ReferenceIdeal.RefValue.hostAgg x1 x2) x0
        (Cert.ReferenceIdeal.RefValue.w0 x3) (Cert.ReferenceIdeal.RefValue.w0 x5)
        (Cert.ReferenceIdeal.RefValue.w1 x3) (Cert.ReferenceIdeal.RefValue.w1 x5)
        (Cert.ReferenceIdeal.RefValue.w2 x3) (Cert.ReferenceIdeal.RefValue.w2 x5)
        (fun j => Cert.ReferenceIdeal.RefValue.bs0 x4 (ix1 j)) (fun j => Cert.ReferenceIdeal.RefValue.bs1 x4 (ix1 j))
        (fun j => Cert.ReferenceIdeal.RefValue.bs2 x4 (ix1 j))
      = Cert.GraphConv.net (Cert.KernelIdeal.Chain.aggE (Cert.KernelIdeal.Chain.sl0 x1) (Cert.KernelIdeal.Chain.sl1 x1) x2) x0
        (Cert.KernelIdeal.Chain.wk0 x3) (Cert.KernelIdeal.Chain.wk0 x5)
        (Cert.KernelIdeal.Chain.wk1 x3) (Cert.KernelIdeal.Chain.wk1 x5)
        (Cert.KernelIdeal.Chain.wk2 x3) (Cert.KernelIdeal.Chain.wk2 x5)
        (fun j => Cert.KernelIdeal.Chain.brow (Cert.KernelIdeal.Chain.bv0 x4) (ix2 (0 : Fin 1) j))
        (fun j => Cert.KernelIdeal.Chain.brow (Cert.KernelIdeal.Chain.bv1 x4) (ix2 (0 : Fin 1) j))
        (fun j => Cert.KernelIdeal.Chain.brow (Cert.KernelIdeal.Chain.bv2 x4) (ix2 (0 : Fin 1) j)) := by
  have hb0 : (fun j : Fin 128 => Cert.KernelIdeal.Chain.brow (Cert.KernelIdeal.Chain.bv0 x4) (ix2 (0 : Fin 1) j))
      = fun j => Cert.ReferenceIdeal.RefValue.bs0 x4 (ix1 j) :=
    funext fun j => shapeCast_a_1a_apply (Cert.KernelIdeal.Chain.bv0 x4) Cert.KernelIdeal.Gen.shapeCasts_S128_S1x128 0 j
  have hb1 : (fun j : Fin 128 => Cert.KernelIdeal.Chain.brow (Cert.KernelIdeal.Chain.bv1 x4) (ix2 (0 : Fin 1) j))
      = fun j => Cert.ReferenceIdeal.RefValue.bs1 x4 (ix1 j) :=
    funext fun j => shapeCast_a_1a_apply (Cert.KernelIdeal.Chain.bv1 x4) Cert.KernelIdeal.Gen.shapeCasts_S128_S1x128 0 j
  have hb2 : (fun j : Fin 128 => Cert.KernelIdeal.Chain.brow (Cert.KernelIdeal.Chain.bv2 x4) (ix2 (0 : Fin 1) j))
      = fun j => Cert.ReferenceIdeal.RefValue.bs2 x4 (ix1 j) :=
    funext fun j => shapeCast_a_1a_apply (Cert.KernelIdeal.Chain.bv2 x4) Cert.KernelIdeal.Gen.shapeCasts_S128_S1x128 0 j
  rw [hb0, hb1, hb2]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs run, and end with the three layers of the argument arrays in their result arrays. -/
theorem algebraic : Cert.algebraic_KernelIdeal_ReferenceIdeal := by
  intro m ρ m' ρ' _ hagree
  refine ⟨fun c => Cert.KernelIdeal.Gen.W6 m ρ c (Proc.devRef .tc Cert.KernelIdeal.main_v66), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq, Cert.ReferenceIdeal.RefValue.hostNet_eq,
    (hagree c).1, (hagree c).2.1, (hagree c).2.2.1, (hagree c).2.2.2.1, (hagree c).2.2.2.2.1, (hagree c).2.2.2.2.2]
  exact (nets_agree _ _ _ _ _ _).trans (Cert.KernelIdeal.Chain.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
